-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x4096 : Shape := ⟨2, ![2048, 4096]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S2048x4096 .f32) (main_arg4 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_v13 main_v16
-- ==== Kernel.lean ====
abbrev S8192x1024 : Shape := ⟨2, ![8192, 1024]⟩
abbrev S2048x4096 : Shape := ⟨2, ![2048, 4096]⟩
abbrev S4096 : Shape := ⟨1, ![4096]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x4096, .f32⟩
  | .hbm, ⟨4, _⟩ => ⟨S4096, .f32⟩
  | .hbm, ⟨5, _⟩ => ⟨S1024x4096, .f32⟩
  | .hbm, ⟨6, _⟩ => ⟨S1024x4096, .bf16⟩
  | .hbm, ⟨7, _⟩ => ⟨S1024x4096, .f32⟩
  | .hbm, ⟨8, _⟩ => ⟨S1024x4096, .bf16⟩
  | .hbm, ⟨9, _⟩ => ⟨S1x4096, .f32⟩
  | .hbm, ⟨10, _⟩ => ⟨S8192x1024, .f32⟩
  | .hbm, ⟨11, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2048x4096_S1024x4096_0_0 : S2048x4096.Slices ![0, 0] S1024x4096
  bitsLt_bf16_f32 : FTy.bits .bf16 < FTy.bits .f32
  slices_S2048x4096_S1024x4096_1024_0 : S2048x4096.Slices ![1024, 0] S1024x4096
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x4096 : Shape := ⟨2, ![2048, 4096]⟩
abbrev S4096 : Shape := ⟨1, ![4096]⟩
abbrev S8192x2048 : Shape := ⟨2, ![8192, 2048]⟩
abbrev S8192x4096 : Shape := ⟨2, ![8192, 4096]⟩
abbrev S1x4096 : Shape := ⟨2, ![1, 4096]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x4096, .f32⟩
  | .hbm, ⟨4, _⟩ => ⟨S4096, .f32⟩
  | .hbm, ⟨5, _⟩ => ⟨S8192x2048, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.LstmSpec.lean ====
/-
  The LSTM cell as one function of its argument arrays, and the two laws that join its two spellings.

  For a batch row `r` and a gate column `j` the pre-activation is
      gate r j = ∑_{k<1024} x(r,k)·W(k,j) + ∑_{k<1024} h(r,k)·W(1024+k,j) + b(j),
  the input part and the recurrent part of the product [x,h]·W summed apart. The four gates are the four
  1024-column bands of it (input, forget, output, candidate), and for a unit `q`
      c'(r,q) = c(r,q)·σ(gate r (1024+q)) + tanh(gate r (3072+q))·σ(gate r q),
      h'(r,q) = σ(gate r (2048+q))·tanh(c'(r,q)),
  with σ the logistic function on the extended reals (0 at -∞, 1 at +∞).

  The laws: a sum over 2048 terms is the sum of its first and second 1024 (`sum_halves`), with no condition on
  the terms, since addition on the extended reals is commutative and associative; and
      ½·tanh(½·v) + ½ = σ(v)
  for EVERY extended real v (`half_tanh_half`): on the reals it is the identity
  (e^{v/2} - e^{-v/2})/(e^{v/2} + e^{-v/2}) + 1 = 2/(1 + e^{-v}), and at the two infinities both sides are 0 and 1.
-/
import Idealize.ShloMosaic.PureOps.Ideal.Laws
import Idealize.ShloMosaic.Lib.ValueIdx

noncomputable section

namespace Cert.LstmSpec

open Idealize.ShloMosaic Idealize.ShloMosaic.ValueIdx

/-! ## The two literals -/

/-- The word 0x3F000000 is one half. -/
theorem half_eq : Ideal.ofBits .f32 0x3F000000#32 = ((1 / 2 : ℝ) : EReal) := by
  simp [Ideal.ofBits, Ideal.ieee, -EReal.coe_mul]; norm_num

/-- The word 0x3F800000 is one. -/
theorem one_eq : Ideal.ofBits .f32 0x3F800000#32 = 1 := by
  simp [Ideal.ofBits, Ideal.ieee, -EReal.coe_mul]; norm_num

/-! ## The logistic function through the hyperbolic tangent -/

/-- On the reals: ½·tanh(½·r) + ½ = 1/(1 + e^{-r}). With a = e^{r/2} both sides are a²/(a² + 1). -/
theorem real_half_tanh_half (r : ℝ) : 1 / 2 * Real.tanh (1 / 2 * r) + 1 / 2 = (1 + Real.exp (-r))⁻¹ := by
  have hsplit : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, hsplit, Real.exp_neg]
  have hpos : 0 < Real.exp (1 / 2 * r) := Real.exp_pos _
  generalize Real.exp (1 / 2 * r) = a at hpos ⊢
  have ha : a ≠ 0 := hpos.ne'
  have h1 : a + a⁻¹ ≠ 0 := by positivity
  have h2 : 1 + a⁻¹ * a⁻¹ ≠ 0 := by positivity
  field_simp
  ring

/-- On the extended reals, at every point: ½·tanh(½·v) + ½ is the logistic function of v. -/
theorem half_tanh_half (v : EReal) :
    ((1 / 2 : ℝ) : EReal) * Ideal.tanh (((1 / 2 : ℝ) : EReal) * v) + ((1 / 2 : ℝ) : EReal) = Ideal.logistic v := by
  have hpos : (0 : ℝ) < 1 / 2 := by norm_num
  induction v using EReal.rec with
  | bot =>
    rw [EReal.coe_mul_bot_of_pos hpos, Ideal.tanh_bot, Ideal.logistic_bot,
      show (-1 : EReal) = ((-1 : ℝ) : EReal) by rw [EReal.coe_neg, EReal.coe_one],
      ← EReal.coe_mul, ← EReal.coe_add, ← EReal.coe_zero]
    congr 1; norm_num
  | coe r =>
    rw [← EReal.coe_mul, Ideal.tanh_coe, ← EReal.coe_mul, ← EReal.coe_add, Ideal.logistic_coe, real_half_tanh_half]
  | top =>
    rw [EReal.coe_mul_top_of_pos hpos, Ideal.tanh_top, Ideal.logistic_top, mul_one, ← EReal.coe_add, ← EReal.coe_one]
    congr 1; norm_num

/-- The same with the half spelt as its word. -/
theorem half_tanh_half_word (v : EReal) :
    Ideal.ofBits .f32 0x3F000000#32 * Ideal.tanh (Ideal.ofBits .f32 0x3F000000#32 * v) + Ideal.ofBits .f32 0x3F000000#32
      = Ideal.logistic v := by
  rw [half_eq]; exact half_tanh_half v

/-- The quotient 1/(1 + e^{-v}) with the ones spelt as their word is the logistic function. -/
theorem one_div_one_add_exp_neg (v : EReal) :
    Ideal.div (Ideal.ofBits .f32 0x3F800000#32) (Ideal.ofBits .f32 0x3F800000#32 + Ideal.exp (-v)) = Ideal.logistic v := by
  rw [one_eq]; rfl

/-! ## A sum over 2048 terms in two halves -/

/-- Row `k`: in the first half of the 2048 rows. -/
abbrev lo (k : Fin 1024) : Fin 2048 := ⟨k.val, by omega⟩
/-- Row `1024 + k`: in the second half. -/
abbrev hi (k : Fin 1024) : Fin 2048 := ⟨1024 + k.val, by omega⟩

theorem sum_halves (f : Fin 2048 → EReal) : ∑ k : Fin 2048, f k = ∑ k : Fin 1024, f (lo k) + ∑ k : Fin 1024, f (hi k) :=
  Fin.sum_univ_add (M := EReal) (a := 1024) (b := 1024) f

/-! ## The cell -/

/-- Column `q` of the input gate's band. -/
abbrev colI (q : Fin 1024) : Fin 4096 := ⟨q.val, by omega⟩
/-- of the forget gate's. -/
abbrev colF (q : Fin 1024) : Fin 4096 := ⟨1024 + q.val, by omega⟩
/-- of the output gate's. -/
abbrev colO (q : Fin 1024) : Fin 4096 := ⟨2048 + q.val, by omega⟩
/-- of the candidate's. -/
abbrev colG (q : Fin 1024) : Fin 4096 := ⟨3072 + q.val, by omega⟩

abbrev SX : Shape := ⟨2, ![8192, 1024]⟩
abbrev SW : Shape := ⟨2, ![2048, 4096]⟩
abbrev SB : Shape := ⟨1, ![4096]⟩

/-- The pre-activation of gate column `j` on batch row `r`. -/
def gate (x h : SX.Idx → EReal) (W : SW.Idx → EReal) (b : SB.Idx → EReal) (r : Fin 8192) (j : Fin 4096) : EReal :=
  (∑ k : Fin 1024, x (ix2 r k) * W (ix2 (lo k) j)) + (∑ k : Fin 1024, h (ix2 r k) * W (ix2 (hi k) j)) + b (ix1 j)

/-- The new cell state. -/
def newC (x h c : SX.Idx → EReal) (W : SW.Idx → EReal) (b : SB.Idx → EReal) (r : Fin 8192) (q : Fin 1024) : EReal :=
  c (ix2 r q) * Ideal.logistic (gate x h W b r (colF q))
    + Ideal.tanh (gate x h W b r (colG q)) * Ideal.logistic (gate x h W b r (colI q))

/-- The new hidden state. -/
def newH (x h c : SX.Idx → EReal) (W : SW.Idx → EReal) (b : SB.Idx → EReal) (r : Fin 8192) (q : Fin 1024) : EReal :=
  Ideal.logistic (gate x h W b r (colO q)) * Ideal.tanh (newC x h c W b r q)

/-- The two results as whole arrays. -/
def outC (x h c : SX.Idx → EReal) (W : SW.Idx → EReal) (b : SB.Idx → EReal) : SX.Idx → EReal :=
  fun i => newC x h c W b (i 0) (i 1)

def outH (x h c : SX.Idx → EReal) (W : SW.Idx → EReal) (b : SB.Idx → EReal) : SX.Idx → EReal :=
  fun i => newH x h c W b (i 0) (i 1)

end Cert.LstmSpec

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.RefLstm.lean ====
/-
  The reference computes the LSTM cell: its two results, read entry by entry, are `outH` and `outC`.

  The reference joins x and h side by side into an 8192×2048 array and multiplies by the 2048×4096 weight. Entry
  (r, j) of that product is a sum over 2048 positions; its first 1024 terms read x and rows 0 … 1023 of W, its last 1024
  read h and rows 1024 … 2047 (`sum_halves` and the two-piece concatenation read by coordinates), which is `gate`
  once the bias, broadcast down the rows, is added. The four slices are the four column bands. Each sigmoid is spelt
  1/(1 + e^{-v}) with the literal one: the logistic function.
-/
import proofs.«146431_j53970559041914_2_alg».proof.Proof.Gen.ReferenceIdeal.Read
import proofs.«146431_j53970559041914_2_alg».proof.Proof.LstmSpec
import proofs.«146431_j53970559041914_2_alg».proof.Proof.LibConcatPair
import proofs.«146431_j53970559041914_2_alg».proof.Proof.LibPlainDot

noncomputable section

namespace Cert.ReferenceIdeal.Cell

open Cert.ReferenceIdeal Cert.ReferenceIdeal.Gen Cert.ReferenceIdeal.Read
open Idealize.ShloMosaic Idealize.ShloMosaic.ValueIdx Cert.LstmSpec

variable (x0 x1 x2 : (⟨S8192x1024, .f32⟩ : BufTy).Contents (Elt Ideal))
  (x3 : (⟨S2048x4096, .f32⟩ : BufTy).Contents (Elt Ideal)) (x4 : (⟨S4096, .f32⟩ : BufTy).Contents (Elt Ideal))

/-- Entry (r, j) of [x,h]·W: the sum over the 2048 joined positions, first half from x, second half from h. -/
theorem product_apply (r : Fin 8192) (j : Fin 4096) :
    val_main_v1 (F := Ideal) x0 x1 x3 (ix2 r j)
      = (∑ k : Fin 1024, x0 (ix2 r k) * x3 (ix2 (lo k) j)) + (∑ k : Fin 1024, x1 (ix2 r k) * x3 (ix2 (hi k) j)) := by
  unfold val_main_v1
  refine (PlainDot.hostDot_apply _ rfl none _ _ (ix2 r j)).trans ?_
  refine (sum_halves _).trans ?_
  refine congrArg₂ (· + ·) (Finset.sum_congr rfl fun k _ => ?_) (Finset.sum_congr rfl fun k _ => ?_)
  · exact congrArg (· * x3 (ix2 (lo k) j))
      (ConcatPair.cols_fst (a := 1024) (b := 1024) (c := 2048) (n := 8192) x0 x1
        concatenates_S8192x1024_S8192x1024_S8192x2048_d1 r k (by omega))
  · exact congrArg (· * x3 (ix2 (hi k) j))
      (ConcatPair.cols_snd (a := 1024) (b := 1024) (c := 2048) (n := 8192) x0 x1
        concatenates_S8192x1024_S8192x1024_S8192x2048_d1 r k (by omega))

/-- The pre-activations, bias added: `gate`. -/
theorem gates_apply (r : Fin 8192) (j : Fin 4096) :
    val_main_v4 (F := Ideal) x0 x1 x3 x4 (ix2 r j) = gate x0 x1 x3 x4 r j := by
  have hb : idx_main_v2 (idx_main_v3 (ix2 r j)) = ix1 j :=
    funext fun a => Fin.ext (by match a with | ⟨0, _⟩ => rfl)
  rw [val_main_v4_apply, val_main_v3_apply, val_main_v2_apply, hb, product_apply]
  rfl

/-- The four bands. -/
theorem bandI_apply (r : Fin 8192) (q : Fin 1024) :
    val_main_v5 (F := Ideal) x0 x1 x3 x4 (ix2 r q) = gate x0 x1 x3 x4 r (colI q) := by
  have e : idx_main_v5 (ix2 r q) = ix2 r (colI q) :=
    funext fun a => Fin.ext (by match a with | ⟨0, _⟩ => rfl | ⟨1, _⟩ => rfl)
  rw [val_main_v5_apply, e, gates_apply]

theorem bandF_apply (r : Fin 8192) (q : Fin 1024) :
    val_main_v6 (F := Ideal) x0 x1 x3 x4 (ix2 r q) = gate x0 x1 x3 x4 r (colF q) := by
  have e : idx_main_v6 (ix2 r q) = ix2 r (colF q) :=
    funext fun a => Fin.ext (by match a with | ⟨0, _⟩ => rfl | ⟨1, _⟩ => rfl)
  rw [val_main_v6_apply, e, gates_apply]

theorem bandO_apply (r : Fin 8192) (q : Fin 1024) :
    val_main_v7 (F := Ideal) x0 x1 x3 x4 (ix2 r q) = gate x0 x1 x3 x4 r (colO q) := by
  have e : idx_main_v7 (ix2 r q) = ix2 r (colO q) :=
    funext fun a => Fin.ext (by match a with | ⟨0, _⟩ => rfl | ⟨1, _⟩ => rfl)
  rw [val_main_v7_apply, e, gates_apply]

theorem bandG_apply (r : Fin 8192) (q : Fin 1024) :
    val_main_v8 (F := Ideal) x0 x1 x3 x4 (ix2 r q) = gate x0 x1 x3 x4 r (colG q) := by
  have e : idx_main_v8 (ix2 r q) = ix2 r (colG q) :=
    funext fun a => Fin.ext (by match a with | ⟨0, _⟩ => rfl | ⟨1, _⟩ => rfl)
  rw [val_main_v8_apply, e, gates_apply]

/-- The forget gate's sigmoid. -/
theorem sigF_apply (r : Fin 8192) (q : Fin 1024) :
    val_main_v14 (F := Ideal) x0 x1 x3 x4 (ix2 r q) = Ideal.logistic (gate x0 x1 x3 x4 r (colF q)) := by
  rw [val_main_v14_apply, val_main_v13_apply, val_main_cst_0_apply, val_main_v12_apply, val_main_v11_apply,
    val_main_cst_apply, val_main_v10_apply, val_main_v9_apply, bandF_apply]
  exact one_div_one_add_exp_neg _

/-- The input gate's. -/
theorem sigI_apply (r : Fin 8192) (q : Fin 1024) :
    val_main_v22 (F := Ideal) x0 x1 x3 x4 (ix2 r q) = Ideal.logistic (gate x0 x1 x3 x4 r (colI q)) := by
  rw [val_main_v22_apply, val_main_v21_apply, val_main_cst_2_apply, val_main_v20_apply, val_main_v19_apply,
    val_main_cst_1_apply, val_main_v18_apply, val_main_v17_apply, bandI_apply]
  exact one_div_one_add_exp_neg _

/-- The output gate's. -/
theorem sigO_apply (r : Fin 8192) (q : Fin 1024) :
    val_main_v30 (F := Ideal) x0 x1 x3 x4 (ix2 r q) = Ideal.logistic (gate x0 x1 x3 x4 r (colO q)) := by
  rw [val_main_v30_apply, val_main_v29_apply, val_main_cst_4_apply, val_main_v28_apply, val_main_v27_apply,
    val_main_cst_3_apply, val_main_v26_apply, val_main_v25_apply, bandO_apply]
  exact one_div_one_add_exp_neg _

/-- The new cell state at (r, q). -/
theorem cell_apply (r : Fin 8192) (q : Fin 1024) :
    val_main_v24 (F := Ideal) x0 x1 x2 x3 x4 (ix2 r q) = newC x0 x1 x2 x3 x4 r q := by
  rw [val_main_v24_apply, val_main_v15_apply, sigF_apply, val_main_v23_apply, val_main_v16_apply, bandG_apply, sigI_apply]
  rfl

/-- The new hidden state at (r, q). -/
theorem hidden_apply (r : Fin 8192) (q : Fin 1024) :
    val_main_v32 (F := Ideal) x0 x1 x2 x3 x4 (ix2 r q) = newH x0 x1 x2 x3 x4 r q := by
  rw [val_main_v32_apply, sigO_apply, val_main_v31_apply, cell_apply]
  rfl

/-- The reference's second result is the new cell state, as arrays. -/
theorem cell_eq : val_main_v24 (F := Ideal) x0 x1 x2 x3 x4 = outC x0 x1 x2 x3 x4 := by
  funext i
  obtain ⟨r, q, rfl⟩ : ∃ (r : Fin 8192) (q : Fin 1024), i = ix2 r q := ⟨i 0, i 1, eq_ix2 i⟩
  exact cell_apply x0 x1 x2 x3 x4 r q

/-- Its first result is the new hidden state. -/
theorem hidden_eq : val_main_v32 (F := Ideal) x0 x1 x2 x3 x4 = outH x0 x1 x2 x3 x4 := by
  funext i
  obtain ⟨r, q, rfl⟩ : ∃ (r : Fin 8192) (q : Fin 1024), i = ix2 r q := ⟨i 0, i 1, eq_ix2 i⟩
  exact hidden_apply x0 x1 x2 x3 x4 r q

end Cert.ReferenceIdeal.Cell

end
-- ==== Proof.KernelGates.lean ====
/-
  What the kernel body computes from its blocks, entry by entry.

  At a grid point the body holds a 256-row block of x, of h and of c, the two 1024×4096 halves of the weight
  (rows 0 … 1023 and rows 1024 … 2047, each rounded to bf16: the identity on the extended reals) and the bias as one row.
  Its pre-activation block is x·Wx + h·Wh + bias: at (p, j) the two products into zero accumulators are the two sums
  over k < 1024, and the bias row broadcast down the 256 rows is read at column j (`preact_apply`). The cell state it
  stores is c·s(f) + tanh(g)·s(i) and the hidden state s(o)·tanh(c'), with s(v) = ½·tanh(½·v) + ½, which is the logistic
  function (`half_tanh_half_word`), the four gates being columns q, 1024 + q, 2048 + q, 3072 + q of the pre-activation.
-/
import proofs.«146431_j53970559041914_2_alg».proof.Proof.Gen.KernelIdeal.Skeleton
import proofs.«146431_j53970559041914_2_alg».proof.Proof.LstmSpec
import proofs.«146431_j53970559041914_2_alg».proof.Proof.LibPlainDot
import Idealize.ShloMosaic.Lib.Pipeline.Value
import Idealize.ShloMosaic.Lib.ValueLayout

noncomputable section

namespace Cert.KernelIdeal.Cell

open Cert.KernelIdeal Cert.KernelIdeal.Gen
open Idealize.ShloMosaic Idealize.ShloMosaic.ValueIdx Cert.LstmSpec

variable (X H C : Vec Ideal S256x1024 .f32) (Wx Wh : Vec Ideal S1024x4096 .bf16) (B : Vec Ideal S1x4096 .f32)

/-- The block's pre-activation of gate column `j` on its row `p`. -/
def preact (p : Fin 256) (j : Fin 4096) : EReal :=
  (∑ k : Fin 1024, X (ix2 p k) * Wx (ix2 k j)) + (∑ k : Fin 1024, H (ix2 p k) * Wh (ix2 k j)) + B (ix2 (0 : Fin 1) j)

/-- The pre-activation payload at (p, j): the two products as sums, the bias row at j. -/
theorem preact_apply (p : Fin 256) (j : Fin 4096) :
    k0_pay2 X H Wx Wh B (ix2 p j) = preact X H Wx Wh B p j := by
  unfold k0_pay2 preact
  refine congrArg₂ (· + ·) (congrArg₂ (· + ·) ?_ ?_) ?_
  · refine (PlainDot.matmul_zero_apply _ rfl none _ _ (ix2 p j)).trans ?_
    refine Finset.sum_congr rfl fun k _ => ?_
    exact congrArg (X (ix2 p k) * ·) (congrFun (shapeCast_self Wx shapeCasts_S1024x4096_S1024x4096) (ix2 k j))
  · refine (PlainDot.matmul_zero_apply _ rfl none _ _ (ix2 p j)).trans ?_
    refine Finset.sum_congr rfl fun k _ => ?_
    exact congrArg (H (ix2 p k) * ·) (congrFun (shapeCast_self Wh shapeCasts_S1024x4096_S1024x4096) (ix2 k j))
  · refine (broadcastTo_1b_ab_apply _ broadcasts_S1x4096_S256x4096 p j).trans ?_
    exact congrFun (shapeCast_self B shapeCasts_S1x4096_S1x4096) (ix2 (0 : Fin 1) j)

/-- A column band of the pre-activation block: the slice from column `o` at (p, q) is the block at (p, o + q). -/
theorem band_apply (o : Nat) (h : S256x4096.Slices ![0, o] S256x1024) (p : Fin 256) (q : Fin 1024) (j : Fin 4096)
    (hj : j.val = o + q.val) :
    extractStridedSlice S256x1024 ![0, o] (k0_pay2 X H Wx Wh B) h (ix2 p q) = preact X H Wx Wh B p j :=
  (slice2_axis1_apply o (k0_pay2 X H Wx Wh B) h p q j hj).trans (preact_apply X H Wx Wh B p j)

/-- The block's new cell state at (p, q). -/
def blockC (p : Fin 256) (q : Fin 1024) : EReal :=
  C (ix2 p q) * Ideal.logistic (preact X H Wx Wh B p (colF q))
    + Ideal.tanh (preact X H Wx Wh B p (colG q)) * Ideal.logistic (preact X H Wx Wh B p (colI q))

/-- The block's new hidden state at (p, q). -/
def blockH (p : Fin 256) (q : Fin 1024) : EReal :=
  Ideal.logistic (preact X H Wx Wh B p (colO q)) * Ideal.tanh (blockC X H C Wx Wh B p q)

/-- The cell-state payload at (p, q). -/
theorem cell_apply (p : Fin 256) (q : Fin 1024) :
    k0_pay4 X H Wx Wh B C (ix2 p q) = blockC X H C Wx Wh B p q := by
  unfold k0_pay4 blockC
  refine congrArg₂ (· + ·) (congrArg (C (ix2 p q) * ·) ?_) (congrArg₂ (· * ·) ?_ ?_)
  · refine Eq.trans ?_ (half_tanh_half_word (preact X H Wx Wh B p (colF q)))
    exact congrArg (fun v => Ideal.ofBits .f32 0x3F000000#32 * Ideal.tanh (Ideal.ofBits .f32 0x3F000000#32 * v)
        + Ideal.ofBits .f32 0x3F000000#32)
      (band_apply X H Wx Wh B 1024 slices_S256x4096_o0_1024_S256x1024 p q (colF q) rfl)
  · exact congrArg Ideal.tanh (band_apply X H Wx Wh B 3072 slices_S256x4096_o0_3072_S256x1024 p q (colG q) rfl)
  · refine Eq.trans ?_ (half_tanh_half_word (preact X H Wx Wh B p (colI q)))
    exact congrArg (fun v => Ideal.ofBits .f32 0x3F000000#32 * Ideal.tanh (Ideal.ofBits .f32 0x3F000000#32 * v)
        + Ideal.ofBits .f32 0x3F000000#32)
      (band_apply X H Wx Wh B 0 slices_S256x4096_o0_0_S256x1024 p q (colI q) (Nat.zero_add _).symm)

/-- The hidden-state payload at (p, q), over the stored cell state and the output gate's band. -/
theorem hidden_apply (p : Fin 256) (q : Fin 1024) :
    k0_pay1 (k0_pay3 X H Wx Wh B) (k0_pay4 X H Wx Wh B C) (Scalar.ofBits .f32 0x3F000000#32) (ix2 p q)
      = blockH X H C Wx Wh B p q := by
  unfold k0_pay1 k0_pay3 blockH
  refine congrArg₂ (· * ·) ?_ (congrArg Ideal.tanh (cell_apply X H C Wx Wh B p q))
  refine Eq.trans ?_ (half_tanh_half_word (preact X H Wx Wh B p (colO q)))
  exact congrArg (fun v => Ideal.ofBits .f32 0x3F000000#32 * Ideal.tanh (Ideal.ofBits .f32 0x3F000000#32 * v)
      + Ideal.ofBits .f32 0x3F000000#32)
    (band_apply X H Wx Wh B 2048 slices_S256x4096_o0_2048_S256x1024 p q (colO q) rfl)

end Cert.KernelIdeal.Cell

end
-- ==== Proof.KernelArray.lean ====
/-
  From blocks to arrays: after the kernel's run its two result arrays are `outH` and `outC` of the arguments.

  Grid point t (of 32) reads rows 256·t … 256·t + 255 of x, h and c and all of the two weight halves and of the bias row, and
  writes rows 256·t … 256·t + 255 of each result; the 32 row blocks tile the 8192 rows. The weight halves the region finds
  are rows 0 … 1023 and 1024 … 2047 of W (each rounded to bf16, the identity here) and the bias row is b recast as 1×4096.
  So on row r = 256·t + p the block's pre-activation is `gate` on row r, and what the point writes is the block of
  `outH` / `outC` at its rows.
-/
import proofs.«146431_j53970559041914_2_alg».proof.Proof.Gen.KernelIdeal.Value
import proofs.«146431_j53970559041914_2_alg».proof.Proof.KernelGates
import Idealize.ShloMosaic.Lib.Pipeline.Value
import Idealize.ShloMosaic.Lib.ValueLayout
import Idealize.ShloMosaic.Lib.StableHlo.Run

noncomputable section

namespace Cert.KernelIdeal.Whole

open Cert.KernelIdeal Cert.KernelIdeal.Gen Cert.KernelIdeal.Value Cert.KernelIdeal.Cell
open Idealize.ShloMosaic Idealize.ShloMosaic.TcCoe Idealize.SL.Sem Idealize.ShloMosaic.ValueIdx Cert.LstmSpec
open Idealize.ShloMosaic.Pipeline (Dat)

/-! ## A block's values from the arrays' rows, over variables -/

section Rows

variable (x h c : SX.Idx → EReal) (W : SW.Idx → EReal) (b : SB.Idx → EReal)
  (X H C : Vec Ideal S256x1024 .f32) (Wx Wh : Vec Ideal S1024x4096 .bf16) (B : Vec Ideal S1x4096 .f32)
  (r : Fin 8192) (p : Fin 256)
  (hX : ∀ k, X (ix2 p k) = x (ix2 r k)) (hH : ∀ k, H (ix2 p k) = h (ix2 r k)) (hC : ∀ q, C (ix2 p q) = c (ix2 r q))
  (hWx : ∀ k j, Wx (ix2 k j) = W (ix2 (lo k) j)) (hWh : ∀ k j, Wh (ix2 k j) = W (ix2 (hi k) j))
  (hB : ∀ j, B (ix2 (0 : Fin 1) j) = b (ix1 j))

include hX hH hWx hWh hB in
/-- When row p of the x and h blocks is row r of x and h, and the weight and bias blocks are the halves of W and b,
    the block's pre-activation on row p is the arrays' on row r. -/
theorem preact_eq_gate (j : Fin 4096) : preact X H Wx Wh B p j = gate x h W b r j := by
  unfold preact gate
  simp only [hX, hH, hWx, hWh, hB]

include hX hH hC hWx hWh hB in
theorem blockC_eq_newC (q : Fin 1024) : blockC X H C Wx Wh B p q = newC x h c W b r q := by
  unfold blockC newC
  rw [preact_eq_gate x h W b X H Wx Wh B r p hX hH hWx hWh hB, preact_eq_gate x h W b X H Wx Wh B r p hX hH hWx hWh hB,
    preact_eq_gate x h W b X H Wx Wh B r p hX hH hWx hWh hB, hC]

include hX hH hC hWx hWh hB in
theorem blockH_eq_newH (q : Fin 1024) : blockH X H C Wx Wh B p q = newH x h c W b r q := by
  unfold blockH newH
  rw [preact_eq_gate x h W b X H Wx Wh B r p hX hH hWx hWh hB, blockC_eq_newC x h c W b X H C Wx Wh B r p hX hH hC hWx hWh hB]

end Rows

variable (m : (ℓ : Loc nD τ sig) → Buf (Elt Ideal) ℓ) (ρ : Dev nD → PrngReg)

theorem hz : (![0, 0] : Fin 2 → Nat) = fun _ => 0 := funext fun a => by fin_cases a <;> rfl

/-! ## The arrays the host operations wrote before the region -/

/-- The first weight half: rows 0 … 1023 of W. -/
theorem V_wx (c : Dev nD) : @Eq ((⟨S1024x4096, .bf16⟩ : BufTy).Contents (Elt Ideal)) (V m c main_v1)
    (truncf (F := Ideal) .bf16 (extractStridedSlice S1024x4096 ![0, 0] (m ((c : Thread nD τ).loc main_arg3)) slices_S2048x4096_S1024x4096_0_0) bitsLt_bf16_f32) := by
  dsimp only [Gen.V, Gen.hostOps0]; after_results

/-- The second: rows 1024 … 2047. -/
theorem V_wh (c : Dev nD) : @Eq ((⟨S1024x4096, .bf16⟩ : BufTy).Contents (Elt Ideal)) (V m c main_v3)
    (truncf (F := Ideal) .bf16 (extractStridedSlice S1024x4096 ![1024, 0] (m ((c : Thread nD τ).loc main_arg3)) slices_S2048x4096_S1024x4096_1024_0) bitsLt_bf16_f32) := by
  dsimp only [Gen.V, Gen.hostOps0]; after_results

/-- The bias as one row. -/
theorem V_b (c : Dev nD) : (V m c main_v4 : (⟨S1x4096, .f32⟩ : BufTy).Contents (Elt Ideal))
    = shapeCast S1x4096 (m ((c : Thread nD τ).loc main_arg4)) shapeCasts_S4096_S1x4096 := by
  dsimp only [Gen.V, Gen.hostOps0]; after_results; rfl

/-! ## The blocks a point reads -/

/-- The printed index maps over the 32 points: the row windows sit at block row t, the others at the origin. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row p of point t's x block is row 256·t + p of x. -/
theorem blk_x (c : Dev nD) (t : Fin cfg0.N) (p : Fin 256) (r : Fin 8192) (hr : r.val = t.val * 256 + p.val) (k : Fin 1024) :
    (iblk m c 0 t : Vec Ideal S256x1024 .f32) (ix2 p k)
      = (m ((c : Thread nD τ).loc main_arg0) : S8192x1024.Idx → EReal) (ix2 r k) := by
  obtain ⟨⟨e0, e1⟩, -⟩ := idx_facts t
  unfold iblk
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- of its h block, of h. -/
theorem blk_h (c : Dev nD) (t : Fin cfg0.N) (p : Fin 256) (r : Fin 8192) (hr : r.val = t.val * 256 + p.val) (k : Fin 1024) :
    (iblk m c 1 t : Vec Ideal S256x1024 .f32) (ix2 p k)
      = (m ((c : Thread nD τ).loc main_arg1) : S8192x1024.Idx → EReal) (ix2 r k) := by
  obtain ⟨-, ⟨e0, e1⟩, -⟩ := idx_facts t
  unfold iblk
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = r.val; omega
  | ⟨1, _⟩ => show win0_1.index t (1 : Fin 2) * 1024 + 1 * k.val = k.val; omega

/-- of its c block, of c. -/
theorem blk_c (c : Dev nD) (t : Fin cfg0.N) (p : Fin 256) (r : Fin 8192) (hr : r.val = t.val * 256 + p.val) (k : Fin 1024) :
    (iblk m c 2 t : Vec Ideal S256x1024 .f32) (ix2 p k)
      = (m ((c : Thread nD τ).loc main_arg2) : S8192x1024.Idx → EReal) (ix2 r k) := by
  obtain ⟨-, -, ⟨e0, e1⟩, -⟩ := idx_facts t
  unfold iblk
  show V m c main_arg2 (((cfg0.win 2).blk t).view.emb (ix2 p k)) = _
  rw [V_main_arg2]
  refine congrArg _ (funext fun a => Fin.ext ?_)
  match a with
  | ⟨0, _⟩ => show win0_2.index t (0 : Fin 2) * 256 + 1 * p.val = r.val; omega
  | ⟨1, _⟩ => show win0_2.index t (1 : Fin 2) * 1024 + 1 * k.val = k.val; omega

/-- Every point's first weight block is rows 0 … 1023 of W. -/
theorem blk_wx (c : Dev nD) (t : Fin cfg0.N) (k : Fin 1024) (j : Fin 4096) :
    (iblk m c 3 t : Vec Ideal S1024x4096 .bf16) (ix2 k j)
      = (m ((c : Thread nD τ).loc main_arg3) : S2048x4096.Idx → EReal) (ix2 (lo k) j) := by
  obtain ⟨-, -, -, ⟨e0, e1⟩, -⟩ := idx_facts t
  unfold iblk
  show V m c main_v1 (((cfg0.win 3).blk t).view.emb (ix2 k j)) = _
  have e : ((cfg0.win 3).blk t).view.emb (ix2 k j) = (ix2 k j : S1024x4096.Idx) := funext fun a => Fin.ext (by
    match a with
    | ⟨0, _⟩ => show win0_3.index t (0 : Fin 2) * 1024 + 1 * k.val = k.val; omega
    | ⟨1, _⟩ => show win0_3.index t (1 : Fin 2) * 4096 + 1 * j.val = j.val; omega)
  rw [e, V_wx]
  exact slice2_axis0_apply 0 _ slices_S2048x4096_S1024x4096_0_0 k j (lo k) (Nat.zero_add _).symm

/-- Its second is rows 1024 … 2047. -/
theorem blk_wh (c : Dev nD) (t : Fin cfg0.N) (k : Fin 1024) (j : Fin 4096) :
    (iblk m c 4 t : Vec Ideal S1024x4096 .bf16) (ix2 k j)
      = (m ((c : Thread nD τ).loc main_arg3) : S2048x4096.Idx → EReal) (ix2 (hi k) j) := by
  obtain ⟨-, -, -, -, ⟨e0, e1⟩, -⟩ := idx_facts t
  unfold iblk
  show V m c main_v3 (((cfg0.win 4).blk t).view.emb (ix2 k j)) = _
  have e : ((cfg0.win 4).blk t).view.emb (ix2 k j) = (ix2 k j : S1024x4096.Idx) := funext fun a => Fin.ext (by
    match a with
    | ⟨0, _⟩ => show win0_4.index t (0 : Fin 2) * 1024 + 1 * k.val = k.val; omega
    | ⟨1, _⟩ => show win0_4.index t (1 : Fin 2) * 4096 + 1 * j.val = j.val; omega)
  rw [e, V_wh]
  exact slice2_axis0_apply 1024 _ slices_S2048x4096_S1024x4096_1024_0 k j (hi k) rfl

/-- Its bias row is b. -/
theorem blk_b (c : Dev nD) (t : Fin cfg0.N) (j : Fin 4096) :
    (iblk m c 5 t : Vec Ideal S1x4096 .f32) (ix2 (0 : Fin 1) j)
      = (m ((c : Thread nD τ).loc main_arg4) : S4096.Idx → EReal) (ix1 j) := by
  obtain ⟨-, -, -, -, -, ⟨e0, e1⟩, -⟩ := idx_facts t
  unfold iblk
  show V m c main_v4 (((cfg0.win 5).blk t).view.emb (ix2 (0 : Fin 1) j)) = _
  have e : ((cfg0.win 5).blk t).view.emb (ix2 (0 : Fin 1) j) = (ix2 (0 : Fin 1) j : S1x4096.Idx) := funext fun a => Fin.ext (by
    match a with
    | ⟨0, _⟩ => show win0_5.index t (0 : Fin 2) * 1 + 1 * 0 = 0; omega
    | ⟨1, _⟩ => show win0_5.index t (1 : Fin 2) * 4096 + 1 * j.val = j.val; omega)
  rw [e, V_b]
  exact shapeCast_a_1a_apply _ shapeCasts_S4096_S1x4096 0 j

/-! ## What a point writes back -/

/-- The arguments as the arrays the specification takes. -/
abbrev ax (c : Dev nD) : SX.Idx → EReal := m ((c : Thread nD τ).loc main_arg0)
abbrev ah (c : Dev nD) : SX.Idx → EReal := m ((c : Thread nD τ).loc main_arg1)
abbrev ac (c : Dev nD) : SX.Idx → EReal := m ((c : Thread nD τ).loc main_arg2)
abbrev aW (c : Dev nD) : SW.Idx → EReal := m ((c : Thread nD τ).loc main_arg3)
abbrev ab (c : Dev nD) : SB.Idx → EReal := m ((c : Thread nD τ).loc main_arg4)

/-- Point t's cell-state block at (p, q) is the new cell state on row 256·t + p. -/
theorem point_c (c : Dev nD) (t : Fin cfg0.N) (p : Fin 256) (q : Fin 1024) (r : Fin 8192) (hr : r.val = t.val * 256 + p.val) :
    k0_pay4 (iblk m c 0 t) (iblk m c 1 t) (iblk m c 3 t) (iblk m c 4 t) (iblk m c 5 t) (iblk m c 2 t) (ix2 p q)
      = newC (ax m c) (ah m c) (ac m c) (aW m c) (ab m c) r q :=
  (cell_apply (iblk m c 0 t) (iblk m c 1 t) (iblk m c 2 t) (iblk m c 3 t) (iblk m c 4 t) (iblk m c 5 t) p q).trans
    (blockC_eq_newC (ax m c) (ah m c) (ac m c) (aW m c) (ab m c) (iblk m c 0 t) (iblk m c 1 t) (iblk m c 2 t)
      (iblk m c 3 t) (iblk m c 4 t) (iblk m c 5 t) r p
      (blk_x m c t p r hr) (blk_h m c t p r hr) (blk_c m c t p r hr) (blk_wx m c t) (blk_wh m c t) (blk_b m c t) q)

/-- Its hidden-state block, the new hidden state. -/
theorem point_h (c : Dev nD) (t : Fin cfg0.N) (p : Fin 256) (q : Fin 1024) (r : Fin 8192) (hr : r.val = t.val * 256 + p.val) :
    k0_pay1 (k0_pay3 (iblk m c 0 t) (iblk m c 1 t) (iblk m c 3 t) (iblk m c 4 t) (iblk m c 5 t))
        (k0_pay4 (iblk m c 0 t) (iblk m c 1 t) (iblk m c 3 t) (iblk m c 4 t) (iblk m c 5 t) (iblk m c 2 t))
        (Scalar.ofBits .f32 0x3F000000#32) (ix2 p q)
      = newH (ax m c) (ah m c) (ac m c) (aW m c) (ab m c) r q :=
  (hidden_apply (iblk m c 0 t) (iblk m c 1 t) (iblk m c 2 t) (iblk m c 3 t) (iblk m c 4 t) (iblk m c 5 t) p q).trans
    (blockH_eq_newH (ax m c) (ah m c) (ac m c) (aW m c) (ab m c) (iblk m c 0 t) (iblk m c 1 t) (iblk m c 2 t)
      (iblk m c 3 t) (iblk m c 4 t) (iblk m c 5 t) r p
      (blk_x m c t p r hr) (blk_h m c t p r hr) (blk_c m c t p r hr) (blk_wx m c t) (blk_wh m c t) (blk_b m c t) q)

/-- WHAT POINT t WRITES BACK to the cell-state array is block t of `outC`. -/
theorem flushed_c (c : Dev nD) (t : Fin cfg0.N) :
    (dats m 0 c).flushed 7 t
      = ((cfg0.win 7).blk t).view.read (Elt Ideal) (outC (ax m c) (ah m c) (ac m c) (aW m c) (ab m c)) := by
  have ht : t.val < 32 := lt_of_lt_of_eq t.isLt N_0
  obtain ⟨-, -, -, -, -, -, -, ⟨e0, e1⟩⟩ := idx_facts t
  rw [flushed7]
  unfold out0_7
  rw [View.canon_unit_zero hz]
  simp only [View.ld_unit_zero (S := S256x1024) hz, View.ld_unit_zero (S := S1024x4096) hz, View.ld_unit_zero (S := S1x4096) hz]
  refine funext fun (y : S256x1024.Idx) => ?_
  obtain ⟨p, q, rfl⟩ : ∃ (p : Fin 256) (q : Fin 1024), y = ix2 p q := ⟨y 0, y 1, eq_ix2 y⟩
  show k0_pay4 (iblk m c 0 t) (iblk m c 1 t) (iblk m c 3 t) (iblk m c 4 t) (iblk m c 5 t) (iblk m c 2 t) (ix2 p q)
    = outC (ax m c) (ah m c) (ac m c) (aW m c) (ab m c) (((cfg0.win 7).blk t).view.emb (ix2 p q))
  have he : ((cfg0.win 7).blk t).view.emb (ix2 p q) = (ix2 (⟨t.val * 256 + p.val, by omega⟩ : Fin 8192) q : SX.Idx) :=
    funext fun a => Fin.ext (by
      match a with
      | ⟨0, _⟩ => show win0_7.index t (0 : Fin 2) * 256 + 1 * p.val = t.val * 256 + p.val; omega
      | ⟨1, _⟩ => show win0_7.index t (1 : Fin 2) * 1024 + 1 * q.val = q.val; omega)
  rw [he]
  exact point_c m c t p q ⟨t.val * 256 + p.val, by omega⟩ rfl

/-- To the hidden-state array, block t of `outH`. -/
theorem flushed_h (c : Dev nD) (t : Fin cfg0.N) :
    (dats m 0 c).flushed 6 t
      = ((cfg0.win 6).blk t).view.read (Elt Ideal) (outH (ax m c) (ah m c) (ac m c) (aW m c) (ab m c)) := by
  have ht : t.val < 32 := lt_of_lt_of_eq t.isLt N_0
  obtain ⟨-, -, -, -, -, -, ⟨e0, e1⟩, -⟩ := idx_facts t
  rw [flushed6]
  unfold out0_6
  rw [View.canon_unit_zero hz]
  simp only [View.ld_unit_zero (S := S256x1024) hz, View.ld_unit_zero (S := S1024x4096) hz, View.ld_unit_zero (S := S1x4096) hz]
  refine funext fun (y : S256x1024.Idx) => ?_
  obtain ⟨p, q, rfl⟩ : ∃ (p : Fin 256) (q : Fin 1024), y = ix2 p q := ⟨y 0, y 1, eq_ix2 y⟩
  show k0_pay1 (k0_pay3 (iblk m c 0 t) (iblk m c 1 t) (iblk m c 3 t) (iblk m c 4 t) (iblk m c 5 t))
        (k0_pay4 (iblk m c 0 t) (iblk m c 1 t) (iblk m c 3 t) (iblk m c 4 t) (iblk m c 5 t) (iblk m c 2 t))
        (Scalar.ofBits .f32 0x3F000000#32) (ix2 p q)
    = outH (ax m c) (ah m c) (ac m c) (aW m c) (ab m c) (((cfg0.win 6).blk t).view.emb (ix2 p q))
  have he : ((cfg0.win 6).blk t).view.emb (ix2 p q) = (ix2 (⟨t.val * 256 + p.val, by omega⟩ : Fin 8192) q : SX.Idx) :=
    funext fun a => Fin.ext (by
      match a with
      | ⟨0, _⟩ => show win0_6.index t (0 : Fin 2) * 256 + 1 * p.val = t.val * 256 + p.val; omega
      | ⟨1, _⟩ => show win0_6.index t (1 : Fin 2) * 1024 + 1 * q.val = q.val; omega)
  rw [he]
  exact point_h m c t p q ⟨t.val * 256 + p.val, by omega⟩ rfl

/-! ## The 32 row blocks tile the 8192 rows -/

/-- An entry of the cell-state array is in point t's block iff each coordinate is in the block's range. -/
theorem mem_blk_c (t : Fin cfg0.N) (i : S8192x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v5_1).slice (win0_7.rect t)).set ↔ _
  rw [View.set_slice_whole, Rect.mem_set_unit]
  exact Iff.rfl

theorem mem_blk_h (t : Fin cfg0.N) (i : S8192x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v5_0).slice (win0_6.rect t)).set ↔ _
  rw [View.set_slice_whole, Rect.mem_set_unit]
  exact Iff.rfl

/-- Row r is in the block of point r / 256. -/
theorem cover_c (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  let t : Fin cfg0.N := ⟨(i 0).val / 256, by rw [show cfg0.N = 32 from N_0]; omega⟩
  obtain ⟨-, -, -, -, -, -, -, ⟨e0, e1⟩⟩ := idx_facts t
  have hv : t.val = (i 0).val / 256 := rfl
  refine ⟨t, flush0_7 t, ?_⟩
  rw [mem_blk_c]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

theorem cover_h (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  let t : Fin cfg0.N := ⟨(i 0).val / 256, by rw [show cfg0.N = 32 from N_0]; omega⟩
  obtain ⟨-, -, -, -, -, -, ⟨e0, e1⟩, -⟩ := idx_facts t
  have hv : t.val = (i 0).val / 256 := rfl
  refine ⟨t, flush0_6 t, ?_⟩
  rw [mem_blk_h]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-! ## The arrays after the run -/

theorem final_c (c : Dev nD) : (dats m 0 c).arrAt 7 cfg0.N = outC (ax m c) (ah m c) (ac m c) (aW m c) (ab m c) :=
  (dats m 0 c).arrAt_eq_of_cover 7 _ (fun t _ => flushed_c m c t) cover_c

theorem final_h (c : Dev nD) : (dats m 0 c).arrAt 6 cfg0.N = outH (ax m c) (ah m c) (ac m c) (aW m c) (ab m c) :=
  (dats m 0 c).arrAt_eq_of_cover 6 _ (fun t _ => flushed_h m c t) cover_h

/-- The kernel's run: the two results at the cell's two functions of the arguments, the arguments unchanged. -/
theorem run : θ_run defs (onTc (τ := τ) (main (F := Ideal))) ⟨m, fun _ => 0, ρ⟩ fun r => ∀ c : Dev nD,
      r.2.mem ((c : Thread nD τ).loc main_v5_0) = outH (ax m c) (ah m c) (ac m c) (aW m c) (ab m c)
      ∧ r.2.mem ((c : Thread nD τ).loc main_v5_1) = outC (ax m c) (ah m c) (ac m c) (aW m c) (ab m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_h m c), (h c).2.1.trans (final_c m c), (h c).2.2⟩)
    (run_blocks m ρ)

end Cert.KernelIdeal.Whole

end
-- ==== Proof.lean ====
/-
  An LSTM cell on 8192 batch rows of 1024 units — gates = [x, h]·W + b, split into the input, forget, output and
  candidate bands; c' = c·σ(f) + tanh(g)·σ(i); h' = σ(o)·tanh(c') — computed by a kernel that walks the batch in 32 blocks
  of 256 rows, against the plain array program. On the extended reals the two agree entry by entry, and for EVERY
  extended-real input, so the precondition is never opened. Two things differ in the spellings:

  * the kernel multiplies x by rows 0 … 1023 of W and h by rows 1024 … 2047 and adds the two products, where the reference
    joins x and h into one 2048-column array and multiplies once: a sum over 2048 terms in two halves
    (`LstmSpec.sum_halves`; the roundings of W, x and h to bf16 on the way in are the identity here);
  * the kernel's sigmoid is ½·tanh(½·v) + ½ and the reference's is 1/(1 + e^{-v}): both are the logistic function at every
    extended real, the two infinities included (`LstmSpec.half_tanh_half`).

  `LstmSpec` states the cell as one function of the five argument arrays (`outH`, `outC`); `RefLstm` reads the
  reference's two results as those functions; `KernelGates` reads the kernel body's two stores, entry by entry, over a
  point's blocks; `KernelArray` puts the 32 row blocks together into the two result arrays. The idealization rewrote
  nothing, so `preserves` is the trivial statement; the frames are the generated ones, the reference's its run with the
  results dropped.
-/
import proofs.«146431_j53970559041914_2_alg».proof.Defs
import proofs.«146431_j53970559041914_2_alg».proof.Proof.Gen.Kernel
import proofs.«146431_j53970559041914_2_alg».proof.Proof.Gen.Kernel.Frame
import proofs.«146431_j53970559041914_2_alg».proof.Proof.Gen.KernelIdeal
import proofs.«146431_j53970559041914_2_alg».proof.Proof.Gen.KernelIdeal.Frame
import proofs.«146431_j53970559041914_2_alg».proof.Proof.Gen.KernelIdeal.Value
import proofs.«146431_j53970559041914_2_alg».proof.Proof.Gen.ReferenceIdeal
import proofs.«146431_j53970559041914_2_alg».proof.Proof.Gen.ReferenceIdeal.Run
import proofs.«146431_j53970559041914_2_alg».proof.Proof.Gen.ReferenceIdeal.Read
import proofs.«146431_j53970559041914_2_alg».proof.Proof.Gen.Pre_finite_inputs
import proofs.«146431_j53970559041914_2_alg».proof.Proof.LstmSpec
import proofs.«146431_j53970559041914_2_alg».proof.Proof.RefLstm
import proofs.«146431_j53970559041914_2_alg».proof.Proof.KernelArray
import Idealize.ShloMosaic.Adequacy
import Idealize.ShloMosaic.Init

noncomputable section

namespace Cert.Proof

open Idealize.ShloMosaic Idealize.SL.Sem Cert.LstmSpec

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with h' = `outH` and c' = `outC` of the (agreeing) arguments. -/
theorem algebraic : Cert.algebraic_KernelIdeal_ReferenceIdeal := by
  intro m ρ m' ρ' _ hagree
  refine ⟨fun c => outH (Cert.KernelIdeal.Whole.ax m c) (Cert.KernelIdeal.Whole.ah m c) (Cert.KernelIdeal.Whole.ac m c)
      (Cert.KernelIdeal.Whole.aW m c) (Cert.KernelIdeal.Whole.ab m c),
    fun c => outC (Cert.KernelIdeal.Whole.ax m c) (Cert.KernelIdeal.Whole.ah m c) (Cert.KernelIdeal.Whole.ac m c)
      (Cert.KernelIdeal.Whole.aW m c) (Cert.KernelIdeal.Whole.ab m c),
    Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    rw [Cert.ReferenceIdeal.Read.val_main_v32_eq, Cert.ReferenceIdeal.Cell.hidden_eq, (hagree c).1, (hagree c).2.1,
      (hagree c).2.2.1, (hagree c).2.2.2.1, (hagree c).2.2.2.2]
  · refine (h c).2.1.trans ?_
    rw [Cert.ReferenceIdeal.Read.val_main_v24_eq, Cert.ReferenceIdeal.Cell.cell_eq, (hagree c).1, (hagree c).2.1,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
